-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S256x128 .f32) (main_arg3 : FVec F S128 .f32) (main_arg4 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S850000x128 : Shape := ⟨2, ![850000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 46
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .bf16⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000x128, .bf16⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S1x128, .f32⟩
  | .hbm, ⟨44, _⟩ => ⟨S50000x1, .f32⟩
  | .hbm, ⟨45, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x1, .f32⟩
  | .local _ .vmem, ⟨12, _⟩ => ⟨S5000x1, .f32⟩
  | .local _ .vmem, ⟨13, _⟩ => ⟨S5000x128, .f32⟩
  | .local _ .vmem, ⟨14, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .i1⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's whole run with its result buffer named.

  @main is three stretches of host operations, the row-scaled product as a first region, a fourth stretch (the gather
  of the scaled rows and their accumulating scatter), and the bias / PReLU epilogue as a second region. The generated
  frame launches these six segments and keeps, of the last thread state, only that the argument arrays are unchanged.
  Here the same launch keeps one more buffer of that state: the result, at the contents the segment fold ends with.
-/
import proofs.«106693_j10007273799960_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result buffer then
    holds what the fold through the six segments leaves in it, and the five argument arrays are as launched. -/
theorem run_main : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Whole

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.ScaledProduct.lean ====
/-
  The first region: the row-scaled product.

  The region walks the 50000 rows in 25 blocks of 2000. At a block it reads the block's rows of x, all of w and the
  block's rows of the coefficient column d, and stores (x_block · w) with row r multiplied by d(r). The block at point
  t is rows 2000·t … 2000·t + 1999 of each array, the blocks tile the result, and so the result array ends holding

      (r, c) ↦ (Σ_k x(r, k) · w(k, c)) · d(r, 0)

  whatever the arrays were when the region was entered (a change of float format is the identity on extended reals).
-/
import proofs.«106693_j10007273799960_2_alg».proof.Proof.Gen.KernelIdeal.Frame
import proofs.«106693_j10007273799960_2_alg».proof.Proof.LibMatmulRows
import proofs.«106693_j10007273799960_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.ScaledProduct

open Cert.KernelIdeal Cert.KernelIdeal.Gen
open Idealize.ShloMosaic Idealize.ShloMosaic.TcCoe Idealize.ShloMosaic.ValueIdx Idealize.SL.Sem
open Idealize.ShloMosaic.Pipeline (Dat)

/-- Entry (r, c) of the row-scaled product of the whole arrays. -/
def whole (x : S50000x256.Idx → EReal) (w : S256x128.Idx → EReal) (d : S50000x1.Idx → EReal) : S50000x128.Idx → EReal :=
  fun i => (∑ k : Fin 256, x (ix2 (i 0) k) * w (ix2 k (i 1))) * d (ix2 (i 0) (0 : Fin 1))

/-! ## One block -/

theorem dot_lhs0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

theorem dot_rhs1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- What the body stores, at entry (p, q) of the block: the product's entry times the coefficient of row p. -/
theorem payload_apply (x0 : FVec Ideal S2000x256 .f32) (x1 : FVec Ideal S256x128 .f32) (x2 : FVec Ideal S2000x1 .f32)
    (p : Fin 2000) (q : Fin 128) :
    k0_pay1 (F := Ideal) x0 x1 x2 (ix2 p q)
      = (∑ k : Fin 256, x0 (ix2 p k) * x1 (ix2 k q)) * x2 (ix2 p (0 : Fin 1)) := by
  unfold k0_pay1
  show FloatOps.matmul dot_S2000x256_S256x128_S2000x128_1_0_0_1_n_n none (φ₁ := .bf16) (φ₂ := .bf16) x0 x1 (constant (F := Ideal) S2000x128 .f32 0x00000000#32) (ix2 p q)
      * broadcastTo S2000x128 (shapeCast S2000x1 x2 shapeCasts_S2000x1_S2000x1) broadcasts_S2000x1_S2000x128 (ix2 p q) = _
  refine congrArg₂ (· * ·) ?_ ?_
  · exact MatmulRows.matmul_zero_apply dot_S2000x256_S256x128_S2000x128_1_0_0_1_n_n none rfl rfl rfl rfl dot_lhs0 dot_rhs1 x0 x1 (ix2 p q)
  · refine (Keepdims.broadcastTo_a1_ab_apply _ broadcasts_S2000x1_S2000x128 p q).trans ?_
    rw [shapeCast_self]

/-! ## From blocks to the array -/

section Array
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: every window that moves is at block row t, block column 0; the weight window
    stays at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the row-scaled product of the arrays as the region finds them. -/
theorem flushed_eq (c : Dev nD) (t : Fin cfg0.N) :
    (dat0 V c).flushed 3 t = ((cfg0.win 3).blk t).view.read (Elt Ideal)
      (whole (V c main_arg0) (V c main_arg2) (V c main_v15)) := by
  show (cfg0.win 3).cut (grid0.coords t) ((dat0 V c).after 3 t) = _
  rw [after0_3]
  unfold out0_3
  rw [View.canon_unit_zero origin]
  simp only [View.ld_unit_zero (S := S2000x256) origin, View.ld_unit_zero (S := S256x128) origin,
    View.ld_unit_zero (S := S2000x1) origin]
  obtain ⟨e00, e01, e10, e11, e20, e21, e30, e31⟩ := index_facts t
  funext j
  obtain ⟨p, q, rfl⟩ : ∃ (p : Fin 2000) (q : Fin 128), j = ix2 p q := ⟨j 0, j 1, eq_ix2 j⟩
  refine (payload_apply (iblk0 V c 0 t) (iblk0 V c 1 t) (iblk0 V c 2 t) p q).trans ?_
  have hp : p.val < 2000 := p.isLt
  have hq : q.val < 128 := q.isLt
  have hN : cfg0.N = 25 := N_0
  have hout : ((cfg0.win 3).blk t).view.emb (ix2 p q) = ix2 (⟨t.val * 2000 + p.val, by have := t.isLt; omega⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show _ = whole (V c main_arg0) (V c main_arg2) (V c main_v15) (((cfg0.win 3).blk t).view.emb (ix2 p q))
  rw [hout]
  unfold whole
  refine congrArg₂ (· * ·) (Finset.sum_congr rfl fun k _ => congrArg₂ (· * ·) ?_ ?_) ?_
  · show V c main_arg0 (((cfg0.win 0).blk t).view.emb (ix2 p k)) = V c main_arg0 _
    refine congrArg _ (funext fun a => Fin.ext ?_)
    have hk : k.val < 256 := k.isLt
    match a with
    | ⟨0, _⟩ => show win0_0.index t (0 : Fin 2) * 2000 + 1 * p.val = t.val * 2000 + p.val; omega
    | ⟨1, _⟩ => show win0_0.index t (1 : Fin 2) * 256 + 1 * k.val = k.val; omega
  · show V c main_arg2 (((cfg0.win 1).blk t).view.emb (ix2 k q)) = V c main_arg2 _
    refine congrArg _ (funext fun a => Fin.ext ?_)
    have hk : k.val < 256 := k.isLt
    match a with
    | ⟨0, _⟩ => show win0_1.index t (0 : Fin 2) * 256 + 1 * k.val = k.val; omega
    | ⟨1, _⟩ => show win0_1.index t (1 : Fin 2) * 128 + 1 * q.val = q.val; omega
  · show V c main_v15 (((cfg0.win 2).blk t).view.emb (ix2 p (0 : Fin 1))) = V c main_v15 _
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega

/-- An index of the result array is in point t's block iff each coordinate is in the block's range. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Row r is in the block of point r / 2000: the 25 blocks tile the 50000 rows. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e30, e31⟩ := index_facts t
  have ht : t.val = (i 0).val / 2000 := rfl
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the region: the row-scaled product of the arrays the region found. -/
theorem final (c : Dev nD) :
    (dat0 V c).arrAt 3 cfg0.N = whole (V c main_arg0) (V c main_arg2) (V c main_v15) :=
  (dat0 V c).arrAt_eq_of_cover 3 _ (fun t _ => flushed_eq V c t) cover

end Array

end Cert.KernelIdeal.ScaledProduct

end
-- ==== Proof.ScaleBiasPrelu.lean ====
/-
  The second region: scale by the row's coefficient, add the bias, apply the per-channel PReLU.

  The region walks the 50000 rows in 10 blocks of 5000. At a block it reads the block's rows of the aggregate g and of
  the coefficient column d, and all of the bias row b and the slope row a, and stores

      v = g(r, c) · d(r, 0) + b(0, c),      out(r, c) = v if v > 0 else a(0, c) · v.

  The blocks tile the result, so the result array ends holding that function of the arrays the region found.
-/
import proofs.«106693_j10007273799960_2_alg».proof.Proof.Gen.KernelIdeal.Frame
import proofs.«106693_j10007273799960_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScaleBiasPrelu

open Cert.KernelIdeal Cert.KernelIdeal.Gen
open Idealize.ShloMosaic Idealize.ShloMosaic.TcCoe Idealize.ShloMosaic.ValueIdx Idealize.SL.Sem
open Idealize.ShloMosaic.Pipeline (Dat)

/-- The per-channel PReLU of `v` with slope `a`: `v` where positive, `a · v` elsewhere. -/
def prelu (a v : EReal) : EReal := Scalar.select (Ideal.cmp .ogt v 0) v (a * v)

/-- Entry (r, c) of the epilogue of the whole arrays. -/
def whole (g : S50000x128.Idx → EReal) (b a : S1x128.Idx → EReal) (d : S50000x1.Idx → EReal) : S50000x128.Idx → EReal :=
  fun i => prelu (a (ix2 (0 : Fin 1) (i 1))) (g (ix2 (i 0) (i 1)) * d (ix2 (i 0) (0 : Fin 1)) + b (ix2 (0 : Fin 1) (i 1)))

/-! ## One block -/

/-- What the body stores, at entry (p, q) of the block. -/
theorem payload_apply (x0 : FVec Ideal S5000x128 .f32) (x3 : FVec Ideal S5000x1 .f32) (x1 x2 : FVec Ideal S1x128 .f32)
    (p : Fin 5000) (q : Fin 128) :
    k1_pay1 (F := Ideal) x0 x3 x1 x2 (ix2 p q)
      = prelu (x2 (ix2 (0 : Fin 1) q)) (x0 (ix2 p q) * x3 (ix2 p (0 : Fin 1)) + x1 (ix2 (0 : Fin 1) q)) := by
  unfold k1_pay1 prelu
  have e0 : shapeCast S5000x128 x0 shapeCasts_S5000x128_S5000x128 = x0 := shapeCast_self _ _
  have e3 : broadcastTo S5000x128 (shapeCast S5000x1 x3 shapeCasts_S5000x1_S5000x1) broadcasts_S5000x1_S5000x128 (ix2 p q)
      = x3 (ix2 p (0 : Fin 1)) := by
    rw [shapeCast_self]; exact Keepdims.broadcastTo_a1_ab_apply _ broadcasts_S5000x1_S5000x128 p q
  have e1 : broadcastTo S5000x128 (shapeCast S1x128 x1 shapeCasts_S1x128_S1x128) broadcasts_S1x128_S5000x128 (ix2 p q)
      = x1 (ix2 (0 : Fin 1) q) := by
    rw [shapeCast_self]; exact broadcastTo_1b_ab_apply _ broadcasts_S1x128_S5000x128 p q
  have e2 : broadcastTo S5000x128 (shapeCast S1x128 x2 shapeCasts_S1x128_S1x128) broadcasts_S1x128_S5000x128 (ix2 p q)
      = x2 (ix2 (0 : Fin 1) q) := by
    rw [shapeCast_self]; exact broadcastTo_1b_ab_apply _ broadcasts_S1x128_S5000x128 p q
  have ez : (Scalar.ofBits (F := Ideal) .f32 0x00000000#32 : EReal) = 0 := Ideal.ofBits_zero_f32
  show Scalar.select
      (Ideal.cmp .ogt
        (shapeCast S5000x128 x0 shapeCasts_S5000x128_S5000x128 (ix2 p q)
            * broadcastTo S5000x128 (shapeCast S5000x1 x3 shapeCasts_S5000x1_S5000x1) broadcasts_S5000x1_S5000x128 (ix2 p q)
          + broadcastTo S5000x128 (shapeCast S1x128 x1 shapeCasts_S1x128_S1x128) broadcasts_S1x128_S5000x128 (ix2 p q))
        (Scalar.ofBits (F := Ideal) .f32 0x00000000#32))
      (shapeCast S5000x128 x0 shapeCasts_S5000x128_S5000x128 (ix2 p q)
          * broadcastTo S5000x128 (shapeCast S5000x1 x3 shapeCasts_S5000x1_S5000x1) broadcasts_S5000x1_S5000x128 (ix2 p q)
        + broadcastTo S5000x128 (shapeCast S1x128 x1 shapeCasts_S1x128_S1x128) broadcasts_S1x128_S5000x128 (ix2 p q))
      (broadcastTo S5000x128 (shapeCast S1x128 x2 shapeCasts_S1x128_S1x128) broadcasts_S1x128_S5000x128 (ix2 p q)
        * (shapeCast S5000x128 x0 shapeCasts_S5000x128_S5000x128 (ix2 p q)
            * broadcastTo S5000x128 (shapeCast S5000x1 x3 shapeCasts_S5000x1_S5000x1) broadcasts_S5000x1_S5000x128 (ix2 p q)
          + broadcastTo S5000x128 (shapeCast S1x128 x1 shapeCasts_S1x128_S1x128) broadcasts_S1x128_S5000x128 (ix2 p q))) = _
  rw [e0, e3, e1, e2, ez]

/-! ## From blocks to the array -/

section Array
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregate, the coefficient column and the result are at block row t,
    block column 0; the bias and slope rows stay at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t writes back is block t of the epilogue of the arrays as the region finds them. -/
theorem flushed_eq (c : Dev nD) (t : Fin cfg1.N) :
    (dat1 V c).flushed 4 t = ((cfg1.win 4).blk t).view.read (Elt Ideal)
      (whole (V c main_v27) (V c main_v28) (V c main_v29) (V c main_v30)) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin,
    View.ld_unit_zero (S := S1x128) origin]
  obtain ⟨e00, e01, e10, e11, e20, e21, e30, e31, e40, e41⟩ := index_facts t
  funext j
  obtain ⟨p, q, rfl⟩ : ∃ (p : Fin 5000) (q : Fin 128), j = ix2 p q := ⟨j 0, j 1, eq_ix2 j⟩
  refine (payload_apply (iblk1 V c 0 t) (iblk1 V c 3 t) (iblk1 V c 1 t) (iblk1 V c 2 t) p q).trans ?_
  have hp : p.val < 5000 := p.isLt
  have hq : q.val < 128 := q.isLt
  have hN : cfg1.N = 10 := N_1
  have hout : ((cfg1.win 4).blk t).view.emb (ix2 p q) = ix2 (⟨t.val * 5000 + p.val, by have := t.isLt; omega⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  show _ = whole (V c main_v27) (V c main_v28) (V c main_v29) (V c main_v30) (((cfg1.win 4).blk t).view.emb (ix2 p q))
  rw [hout]
  unfold whole
  refine congrArg₂ prelu ?_ (congrArg₂ (· + ·) (congrArg₂ (· * ·) ?_ ?_) ?_)
  · show V c main_v29 (((cfg1.win 2).blk t).view.emb (ix2 (0 : Fin 1) q)) = V c main_v29 _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show V c main_v27 (((cfg1.win 0).blk t).view.emb (ix2 p q)) = V c main_v27 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · show V c main_v30 (((cfg1.win 3).blk t).view.emb (ix2 p (0 : Fin 1))) = V c main_v30 _
    refine congrArg _ (funext fun a => Fin.ext ?_)
    match a with
    | ⟨0, _⟩ => show win1_3.index t (0 : Fin 2) * 5000 + 1 * p.val = t.val * 5000 + p.val; omega
    | ⟨1, _⟩ => show win1_3.index t (1 : Fin 2) * 1 + 1 * 0 = 0; omega
  · show V c main_v28 (((cfg1.win 1).blk t).view.emb (ix2 (0 : Fin 1) q)) = V c main_v28 _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the result array is in point t's block iff each coordinate is in the block's range. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

/-- Row r is in the block of point r / 5000: the 10 blocks tile the 50000 rows. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, e40, e41⟩ := index_facts t
  have ht : t.val = (i 0).val / 5000 := rfl
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after the region: the epilogue of the arrays the region found. -/
theorem final (c : Dev nD) :
    (dat1 V c).arrAt 4 cfg1.N = whole (V c main_v27) (V c main_v28) (V c main_v29) (V c main_v30) :=
  (dat1 V c).arrAt_eq_of_cover 4 _ (fun t _ => flushed_eq V c t) cover

end Array

end Cert.KernelIdeal.ScaleBiasPrelu

end
-- ==== Proof.Stages.lean ====
/-
  The stages both programs share, and the reference's result, as functions of the argument arrays.

  Both programs build, by the same operations, the source and target row numbers of the 850000 edges (the two rows of
  the edge list, each followed by 0 … 49999 for the self loops), the degree of every node (ones added into zeros at
  the target rows) and the coefficient `degree > 0 ? degree^(-1/2) : 0`. They are written here once, for any float
  values; a gather reads its rows at the source (or target) numbers with negative ones wrapped by 50000.

  The reference then gathers the rows of x · w, multiplies row e by coef(src e) · coef(dst e), adds the rows into
  zeros at the target rows, adds the bias and applies the per-channel PReLU.
-/
import proofs.«106693_j10007273799960_2_alg».proof.Proof.Gen.ReferenceIdeal
import Idealize.ShloMosaic.PureOps.Ideal

noncomputable section

namespace Cert.ReferenceIdeal.Stages

open Cert.ReferenceIdeal Cert.ReferenceIdeal.Gen Idealize.ShloMosaic Idealize.SL.Sem

variable {F : FTy → Type} [FloatOps F]

/-- Row `r` of the edge list followed by 0 … 49999. -/
def srcIds (ei : IVec S2x800000 32) : IVec S850000 32 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

def dstIds (ei : IVec S2x800000 32) : IVec S850000 32 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- A length-850000 array as an 850000 × 1 column. -/
def asColumn {α : Type} (v : S850000.Idx → α) : S850000x1.Idx → α :=
  broadcastInDim S850000x1 ![0] bcast_S850000_S850000x1_0 v

/-- Negative row numbers wrapped by the node count (numpy's indexing convention). -/
def wrapNegative (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The number of edges arriving at each node. -/
def degree (ei : IVec S2x800000 32) : FVec F S50000 .f32 :=
  Host.scatterAdd scatter_S50000_S850000x1_S850000_n_0_0_1
    (broadcastInDim S50000 ![] bcast_S_S50000 (constant (F := F) S_ .f32 0x00000000#32))
    (asColumn (dstIds ei))
    (broadcastInDim S850000 ![] bcast_S_S850000 (constant (F := F) S_ .f32 0x3F800000#32))

/-- `degree > 0 ? degree^(-1/2) : 0`. -/
def coef (ei : IVec S2x800000 32) : FVec F S50000 .f32 :=
  select (cmpf .ogt (degree (F := F) ei) (broadcastInDim S50000 ![] bcast_S_S50000 (constant (F := F) S_ .f32 0x00000000#32)))
    (Host.rsqrt (degree (F := F) ei))
    (broadcastInDim S50000 ![] bcast_S_S50000 (id (constant (F := F) S_ .f32 0x00000000#32)))

/-- The per-edge weight of the reference: coef(src e) · coef(dst e). -/
def edgeWeight (ei : IVec S2x800000 32) : FVec F S850000 .f32 :=
  mulf (Host.gather gather_S50000_S850000x1_S850000_n_0_n_n_0_1_1 (coef (F := F) ei) (asColumn (wrapNegative (srcIds ei))))
    (Host.gather gather_S50000_S850000x1_S850000_n_0_n_n_0_1_1 (coef (F := F) ei) (asColumn (wrapNegative (dstIds ei))))

/-- The reference before the activation: the weighted rows of x · w added at their target rows, plus the bias. -/
def refPre (x : FVec F S50000x256 .f32) (ei : IVec S2x800000 32) (w : FVec F S256x128 .f32) (b : FVec F S128 .f32) :
    FVec F S50000x128 .f32 :=
  addf
    (Host.scatterAdd scatter_S50000x128_S850000x1_S850000x128_1_0_0_1
      (broadcastInDim S50000x128 ![] bcast_S_S50000x128 (constant (F := F) S_ .f32 0x00000000#32))
      (asColumn (dstIds ei))
      (mulf
        (Host.gather gather_S50000x128_S850000x1_S850000x128_1_0_n_n_0_1_1128
          (Host.dotGeneral dot_S50000x256_S256x128_S50000x128_1_0_0_1_n_n none x w) (asColumn (wrapNegative (srcIds ei))))
        (broadcastInDim S850000x128 ![0, 1] bcast_S850000x1_S850000x128_0_1 (asColumn (edgeWeight (F := F) ei)))))
    (broadcastInDim S50000x128 ![0, 1] bcast_S1x128_S50000x128_0_1 (broadcastInDim S1x128 ![1] bcast_S128_S1x128_1 b))

/-- The reference's result. -/
def refOut (x : FVec F S50000x256 .f32) (ei : IVec S2x800000 32) (w : FVec F S256x128 .f32) (b a : FVec F S128 .f32) :
    FVec F S50000x128 .f32 :=
  select (cmpf .ogt (refPre x ei w b) (broadcastInDim S50000x128 ![] bcast_S_S50000x128 (constant (F := F) S_ .f32 0x00000000#32)))
    (refPre x ei w b)
    (mulf (broadcastInDim S50000x128 ![0, 1] bcast_S1x128_S50000x128_0_1 (broadcastInDim S1x128 ![1] bcast_S128_S1x128_1 a))
      (refPre x ei w b))

end Cert.ReferenceIdeal.Stages

end
-- ==== Proof.KernelValue.lean ====
/-
  The idealized kernel's result as one function of the argument arrays.

  The fold through @main's six segments is read back segment by segment. Each stretch of host operations is read as a
  function of the buffer contents it starts from (so nothing large is ever compared by unfolding): the first three
  stretches leave the edges' source and target numbers, the degree coefficient and its column form; the first region
  leaves the row-scaled product; the fourth stretch gathers its rows at the source numbers and adds them at the target
  numbers, and reshapes bias, slope and coefficient; the second region scales, adds the bias and applies the PReLU.
  The stages the two programs share are named by the same functions on both sides (`Stages`).
-/
import proofs.«106693_j10007273799960_2_alg».proof.Proof.KernelRun
import proofs.«106693_j10007273799960_2_alg».proof.Proof.ScaledProduct
import proofs.«106693_j10007273799960_2_alg».proof.Proof.ScaleBiasPrelu
import proofs.«106693_j10007273799960_2_alg».proof.Proof.Stages
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.ReferenceIdeal.Stages (srcIds dstIds asColumn wrapNegative degree coef)

/-! ## Each stretch of host operations, from any starting contents -/

section Stretches
variable (V : Valuation τ sig (Elt Ideal))

/-- The first stretch: source numbers, -/
theorem first_src : StableHlo.after hostOps0 V (Proc.devRef .tc main_v3) = srcIds (V (Proc.devRef .tc main_arg1)) := by
  dsimp only [hostOps0]; after_results; rfl
/-- target numbers, -/
theorem first_dst : StableHlo.after hostOps0 V (Proc.devRef .tc main_v6) = dstIds (V (Proc.devRef .tc main_arg1)) := by
  dsimp only [hostOps0]; after_results; rfl
/-- the comparison `degree > 0`, -/
theorem first_positive : StableHlo.after hostOps0 V (Proc.devRef .tc main_v12)
    = cmpf .ogt (degree (F := Ideal) (V (Proc.devRef .tc main_arg1)))
        (broadcastInDim S50000 ![] bcast_S_S50000 (constant (F := Ideal) S_ .f32 0x00000000#32)) := by
  dsimp only [hostOps0]; after_results; rfl
/-- the inverse square root of the degree, -/
theorem first_rsqrt : StableHlo.after hostOps0 V (Proc.devRef .tc main_v13)
    = Host.rsqrt (degree (F := Ideal) (V (Proc.devRef .tc main_arg1))) := by
  dsimp only [hostOps0]; after_results; rfl
/-- and the zero the coefficient takes at an isolated node. -/
theorem first_zero : StableHlo.after hostOps0 V (Proc.devRef .tc main_cst_2) = constant (F := Ideal) S_ .f32 0x00000000#32 := by
  dsimp only [hostOps0]; after_results; try rfl

/-- The first stretch writes none of the arrays the regions read from the arguments. -/
theorem first_arg0 : StableHlo.after hostOps0 V (Proc.devRef .tc main_arg0) = V (Proc.devRef .tc main_arg0) := by
  dsimp only [hostOps0]; after_results; try rfl
theorem first_arg2 : StableHlo.after hostOps0 V (Proc.devRef .tc main_arg2) = V (Proc.devRef .tc main_arg2) := by
  dsimp only [hostOps0]; after_results; try rfl
theorem first_arg3 : StableHlo.after hostOps0 V (Proc.devRef .tc main_arg3) = V (Proc.devRef .tc main_arg3) := by
  dsimp only [hostOps0]; after_results; try rfl
theorem first_arg4 : StableHlo.after hostOps0 V (Proc.devRef .tc main_arg4) = V (Proc.devRef .tc main_arg4) := by
  dsimp only [hostOps0]; after_results; try rfl

/-- The second stretch (jnp.where's helper): the selection. -/
theorem second_select :
    StableHlo.after hostOps0_1 V (Proc.devRef .tc main_v14)
      = select (V (Proc.devRef .tc main_v12)) (V (Proc.devRef .tc main_v13))
          (broadcastInDim S50000 ![] bcast_S_S50000 (id (V (Proc.devRef .tc main_cst_2)))) := by
  dsimp only [hostOps0_1]; after_results; rfl
theorem second_keeps (b : Ref sig .tc) (h12 : b ≠ main_call0_v0) (h13 : b ≠ main_call0_v1) (h14 : b ≠ main_v14) :
    StableHlo.after hostOps0_1 V (Proc.devRef .tc b) = V (Proc.devRef .tc b) := by
  dsimp only [hostOps0_1]
  simp only [after_cons, after_nil]
  rw [TRef.ternary, TRef.unary, TRef.unary]
  rw [ternary_result_ne _ _ _ _ _ _ _ _ _ _ h14, unary_result_ne _ _ _ _ _ _ h13, unary_result_ne _ _ _ _ _ _ h12]

/-- The third stretch: the coefficient as a column, the coefficient itself kept. -/
theorem third_column :
    StableHlo.after hostOps0_2 V (Proc.devRef .tc main_v15)
      = shapeCast S50000x1 (V (Proc.devRef .tc main_v14)) shapeCasts_S50000_S50000x1 := by
  dsimp only [hostOps0_2]; after_results; rfl
theorem third_keeps (b : Ref sig .tc) (h : b ≠ main_v15) :
    StableHlo.after hostOps0_2 V (Proc.devRef .tc b) = V (Proc.devRef .tc b) := by
  dsimp only [hostOps0_2]
  simp only [after_cons, after_nil]
  rw [reshape_result_ne _ _ _ _ _ _ _ h]

/-- The fourth stretch: the rows of the first region's result gathered at the source numbers and added at the target
    numbers, -/
theorem fourth_aggregate :
    StableHlo.after hostOps1 V (Proc.devRef .tc main_v27)
      = Host.scatterAdd scatter_S50000x128_S850000x1_S850000x128_1_0_0_1
          (broadcastInDim S50000x128 ![] bcast_S_S50000x128 (constant (F := Ideal) S_ .f32 0x00000000#32))
          (asColumn (V (Proc.devRef .tc main_v6)))
          (extf .f32 (Host.gather gather_S50000x128_S850000x1_S850000x128_1_0_n_n_0_1_1128 (V (Proc.devRef .tc main_v16))
            (asColumn (wrapNegative (V (Proc.devRef .tc main_v3))))) bitsLt_bf16_f32) := by
  dsimp only [hostOps1]; after_results; rfl
/-- the bias and the slope as rows, the coefficient as a column. -/
theorem fourth_bias :
    StableHlo.after hostOps1 V (Proc.devRef .tc main_v28)
      = shapeCast S1x128 (V (Proc.devRef .tc main_arg3)) shapeCasts_S128_S1x128 := by
  dsimp only [hostOps1]; after_results; rfl
theorem fourth_slope :
    StableHlo.after hostOps1 V (Proc.devRef .tc main_v29)
      = shapeCast S1x128 (V (Proc.devRef .tc main_arg4)) shapeCasts_S128_S1x128 := by
  dsimp only [hostOps1]; after_results; rfl
theorem fourth_column :
    StableHlo.after hostOps1 V (Proc.devRef .tc main_v30)
      = shapeCast S50000x1 (V (Proc.devRef .tc main_v14)) shapeCasts_S50000_S50000x1 := by
  dsimp only [hostOps1]; after_results; rfl

end Stretches

/-! ## The fold, boundary by boundary -/

variable (m : (ℓ : Loc nD τ sig) → Buf (Elt Ideal) ℓ) (ρ : Dev nD → PrngReg)

/-- The coefficient after the second stretch is the shared stage. -/
theorem coef_after_second (c : Dev nD) :
    W2 m ρ c (Proc.devRef .tc main_v14) = coef (F := Ideal) (m ((c : Thread nD τ).loc main_arg1)) := by
  show StableHlo.after hostOps0_1 (W1 m ρ c) (Proc.devRef .tc main_v14) = _
  rw [second_select]
  show select (StableHlo.after hostOps0 (W0 m ρ c) (Proc.devRef .tc main_v12))
      (StableHlo.after hostOps0 (W0 m ρ c) (Proc.devRef .tc main_v13))
      (broadcastInDim S50000 ![] bcast_S_S50000 (id (StableHlo.after hostOps0 (W0 m ρ c) (Proc.devRef .tc main_cst_2)))) = _
  rw [first_positive, first_rsqrt, first_zero]
  rfl

/-- At the first region's entry: -/
theorem entry_coef (c : Dev nD) :
    W3 m ρ c (Proc.devRef .tc main_v14) = coef (F := Ideal) (m ((c : Thread nD τ).loc main_arg1)) :=
  (third_keeps (W2 m ρ c) main_v14 (by decide)).trans (coef_after_second m ρ c)
theorem entry_column (c : Dev nD) :
    W3 m ρ c (Proc.devRef .tc main_v15)
      = shapeCast S50000x1 (coef (F := Ideal) (m ((c : Thread nD τ).loc main_arg1))) shapeCasts_S50000_S50000x1 := by
  show StableHlo.after hostOps0_2 (W2 m ρ c) (Proc.devRef .tc main_v15) = _
  rw [third_column, coef_after_second]
theorem entry_src (c : Dev nD) :
    W3 m ρ c (Proc.devRef .tc main_v3) = srcIds (m ((c : Thread nD τ).loc main_arg1)) :=
  (third_keeps (W2 m ρ c) main_v3 (by decide)).trans
    ((second_keeps (W1 m ρ c) main_v3 (by decide) (by decide) (by decide)).trans (first_src (W0 m ρ c)))
theorem entry_dst (c : Dev nD) :
    W3 m ρ c (Proc.devRef .tc main_v6) = dstIds (m ((c : Thread nD τ).loc main_arg1)) :=
  (third_keeps (W2 m ρ c) main_v6 (by decide)).trans
    ((second_keeps (W1 m ρ c) main_v6 (by decide) (by decide) (by decide)).trans (first_dst (W0 m ρ c)))
theorem entry_arg0 (c : Dev nD) : W3 m ρ c (Proc.devRef .tc main_arg0) = m ((c : Thread nD τ).loc main_arg0) :=
  (third_keeps (W2 m ρ c) main_arg0 (by decide)).trans
    ((second_keeps (W1 m ρ c) main_arg0 (by decide) (by decide) (by decide)).trans (first_arg0 (W0 m ρ c)))
theorem entry_arg2 (c : Dev nD) : W3 m ρ c (Proc.devRef .tc main_arg2) = m ((c : Thread nD τ).loc main_arg2) :=
  (third_keeps (W2 m ρ c) main_arg2 (by decide)).trans
    ((second_keeps (W1 m ρ c) main_arg2 (by decide) (by decide) (by decide)).trans (first_arg2 (W0 m ρ c)))
theorem entry_arg3 (c : Dev nD) : W3 m ρ c (Proc.devRef .tc main_arg3) = m ((c : Thread nD τ).loc main_arg3) :=
  (third_keeps (W2 m ρ c) main_arg3 (by decide)).trans
    ((second_keeps (W1 m ρ c) main_arg3 (by decide) (by decide) (by decide)).trans (first_arg3 (W0 m ρ c)))
theorem entry_arg4 (c : Dev nD) : W3 m ρ c (Proc.devRef .tc main_arg4) = m ((c : Thread nD τ).loc main_arg4) :=
  (third_keeps (W2 m ρ c) main_arg4 (by decide)).trans
    ((second_keeps (W1 m ρ c) main_arg4 (by decide) (by decide) (by decide)).trans (first_arg4 (W0 m ρ c)))

/-- The first region's result array at its exit: the row-scaled product of x, w and the coefficient column. -/
theorem exit0_product (c : Dev nD) :
    W4 m ρ c (Proc.devRef .tc main_v16)
      = ScaledProduct.whole (m ((c : Thread nD τ).loc main_arg0)) (m ((c : Thread nD τ).loc main_arg2))
          (shapeCast S50000x1 (coef (F := Ideal) (m ((c : Thread nD τ).loc main_arg1))) shapeCasts_S50000_S50000x1) := by
  refine (W4_arr m ρ c 3).trans ?_
  rw [ScaledProduct.final (V3 m ρ) c]
  show ScaledProduct.whole (W3 m ρ c (Proc.devRef .tc main_arg0)) (W3 m ρ c (Proc.devRef .tc main_arg2))
    (W3 m ρ c (Proc.devRef .tc main_v15)) = _
  rw [entry_arg0, entry_arg2, entry_column]

/-- Every other buffer the later segments read is as at the region's entry. -/
theorem exit0_keeps (c : Dev nD) (b : Ref sig .tc) (hb : ∀ w, Pipeline.arrRef spec0 w ≠ b) :
    W4 m ρ c (Proc.devRef .tc b) = W3 m ρ c (Proc.devRef .tc b) := W4_of_ne m ρ c b hb

/-- The second region's result array at its exit, as a function of the argument arrays. -/
theorem result_eq (c : Dev nD) :
    W6 m ρ c (Proc.devRef .tc main_v31)
      = ScaleBiasPrelu.whole
          (Host.scatterAdd scatter_S50000x128_S850000x1_S850000x128_1_0_0_1
            (broadcastInDim S50000x128 ![] bcast_S_S50000x128 (constant (F := Ideal) S_ .f32 0x00000000#32))
            (asColumn (dstIds (m ((c : Thread nD τ).loc main_arg1))))
            (extf .f32 (Host.gather gather_S50000x128_S850000x1_S850000x128_1_0_n_n_0_1_1128
              (ScaledProduct.whole (m ((c : Thread nD τ).loc main_arg0)) (m ((c : Thread nD τ).loc main_arg2))
                (shapeCast S50000x1 (coef (F := Ideal) (m ((c : Thread nD τ).loc main_arg1))) shapeCasts_S50000_S50000x1))
              (asColumn (wrapNegative (srcIds (m ((c : Thread nD τ).loc main_arg1)))))) bitsLt_bf16_f32))
          (shapeCast S1x128 (m ((c : Thread nD τ).loc main_arg3)) shapeCasts_S128_S1x128)
          (shapeCast S1x128 (m ((c : Thread nD τ).loc main_arg4)) shapeCasts_S128_S1x128)
          (shapeCast S50000x1 (coef (F := Ideal) (m ((c : Thread nD τ).loc main_arg1))) shapeCasts_S50000_S50000x1) := by
  refine (W6_arr m ρ c 4).trans ?_
  rw [ScaleBiasPrelu.final (V5 m ρ) c]
  show ScaleBiasPrelu.whole (StableHlo.after hostOps1 (W4 m ρ c) (Proc.devRef .tc main_v27))
    (StableHlo.after hostOps1 (W4 m ρ c) (Proc.devRef .tc main_v28))
    (StableHlo.after hostOps1 (W4 m ρ c) (Proc.devRef .tc main_v29))
    (StableHlo.after hostOps1 (W4 m ρ c) (Proc.devRef .tc main_v30)) = _
  rw [fourth_aggregate, fourth_bias, fourth_slope, fourth_column, exit0_product,
    exit0_keeps m ρ c main_v6 (by decide), exit0_keeps m ρ c main_v3 (by decide), exit0_keeps m ρ c main_v14 (by decide),
    exit0_keeps m ρ c main_arg3 (by decide), exit0_keeps m ρ c main_arg4 (by decide),
    entry_dst, entry_src, entry_coef, entry_arg3, entry_arg4]

end Cert.KernelIdeal.Whole

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.EdgeSumFactor.lean ====
/-
  The one algebraic fact behind a degree-normalised neighbourhood sum written two ways.

  Rows of an [850000, 128] array of messages are added into the rows of a [50000, 128] array at the row numbers an
  index column names. One program multiplies every message by a coefficient of its SOURCE row and by a coefficient of
  its TARGET row before adding; the other multiplies by the source coefficient only, adds, and multiplies the sum at
  row n by the coefficient of n afterwards. A message that lands at row n was addressed to n, so its target
  coefficient is the coefficient of n; that coefficient is a nonnegative real, and a nonnegative real factor passes
  through a finite sum of extended reals. Hence the two sums agree at every entry, with no finiteness asked of the
  messages.
-/
import proofs.«106693_j10007273799960_2_alg».proof.Proof.LibSegmentSum

noncomputable section

namespace Cert.EdgeSum

open Idealize.ShloMosaic Idealize.ShloMosaic.ValueIdx Idealize.ShloMosaic.SegmentSum

/-- Node count, edge count (self loops included) and channel count. -/
abbrev nodes : Nat := 50000
abbrev edges : Nat := 850000
abbrev chans : Nat := 128

theorem nodes_pos : 0 < nodes := by decide

/-- The messages scaled by source and target coefficients and then added, equal the messages scaled by the source
    coefficient, added, and scaled at row `i 0` by that row's coefficient. `dst` addresses the additions; `dstN` is
    the index column the target coefficient is gathered with: it agrees with `dst` wherever `dst` is nonnegative
    (`hN`), which is all that matters since an update with a negative address lands nowhere. `coef` is a nonnegative
    real at every row (`hc`). -/
theorem scaled_before_eq_scaled_after
    (wf : ScatterDims.WF ⟨2, ![nodes, chans]⟩ ⟨2, ![edges, 1]⟩ ⟨2, ![edges, chans]⟩ [1] [0] [0] 1)
    (dst dstN : IVec ⟨2, ![edges, 1]⟩ 32)
    (hN : ∀ e : Fin edges, 0 ≤ (dst (ix2 e 0)).toInt → dstN (ix2 e 0) = dst (ix2 e 0))
    (msg srcCoef : (⟨2, ![edges, chans]⟩ : Shape).Idx → EReal) (coef : Fin nodes → EReal)
    (hc : ∀ n, ∃ r : ℝ, 0 ≤ r ∧ coef n = (r : EReal))
    (i : (⟨2, ![nodes, chans]⟩ : Shape).Idx) :
    Ideal.hostScatterAdd (rowScatterDims nodes edges chans wf) (fun _ => 0) dst
        (fun j => msg j * (srcCoef j * coef (clampRow nodes nodes_pos dstN (j 0)))) i
      = Ideal.hostScatterAdd (rowScatterDims nodes edges chans wf) (fun _ => 0) dst (fun j => msg j * srcCoef j) i
          * coef (i 0) := by
  obtain ⟨r, hr, hri⟩ := hc (i 0)
  rw [hri]
  rw [← hostScatterAdd_zero_mul_fibre (rowScatterDims nodes edges chans wf) dst (fun j => msg j * srcCoef j)
    (fun j => coef (clampRow nodes nodes_pos dstN (j 0))) i r hr]
  · unfold Ideal.hostScatterAdd
    refine congrArg _ (Finset.sum_congr rfl fun j _ => ?_)
    exact (mul_assoc _ _ _).symm
  · intro j hj
    have hl := rowScatter_lands wf dst j i hj
    have hnn : 0 ≤ (dst (ix2 (j 0) 0)).toInt := by rw [hl]; exact Int.natCast_nonneg _
    have hsame : (dstN (ix2 (j 0) 0)).toInt = (dst (ix2 (j 0) 0)).toInt := by rw [hN (j 0) hnn]
    show coef (clampRow nodes nodes_pos dstN (j 0)) = (r : EReal)
    rw [clampRow_of_lands nodes_pos wf dst dstN j i hj hsame, hri]

/-- The common form of entry `i` of both programs' results: the source-scaled rows of x · w added at their target
    rows, scaled at row `i 0` by that row's coefficient, plus the bias, through the per-channel PReLU
    (`v` where positive, `a · v` elsewhere). `srcCol` names each edge's source row, clamped into the node range. -/
def entry (wf : ScatterDims.WF ⟨2, ![nodes, chans]⟩ ⟨2, ![edges, 1]⟩ ⟨2, ![edges, chans]⟩ [1] [0] [0] 1)
    (dstCol srcCol : IVec ⟨2, ![edges, 1]⟩ 32) (cf : Fin nodes → EReal)
    (x : (⟨2, ![nodes, 256]⟩ : Shape).Idx → EReal) (w : (⟨2, ![256, chans]⟩ : Shape).Idx → EReal)
    (b a : (⟨1, ![chans]⟩ : Shape).Idx → EReal) (i : (⟨2, ![nodes, chans]⟩ : Shape).Idx) : EReal :=
  let v := Ideal.hostScatterAdd (rowScatterDims nodes edges chans wf) (fun _ => 0) dstCol
      (fun j => (∑ k : Fin 256, x (ix2 (clampRow nodes nodes_pos srcCol (j 0)) k) * w (ix2 k (j 1))) * cf (clampRow nodes nodes_pos srcCol (j 0))) i
        * cf (i 0) + b (ix1 (i 1))
  Scalar.select (Ideal.cmp .ogt v 0) v (a (ix1 (i 1)) * v)

/-! ## The host operations on extended reals, read without opening anything

Stated at abstract shapes, so that each is a definitional unfolding of the operation alone. -/

section Abstract
variable {s si su : Shape} {φ : FTy}

theorem scatterAdd_eq (d : ScatterDims s si su) {w : Nat} (x : FVec Ideal s φ) (idx : IVec si w) (u : FVec Ideal su φ) :
    Host.scatterAdd d x idx u = Ideal.hostScatterAdd d x idx u := rfl

theorem rsqrt_apply (x : FVec Ideal s φ) (i : s.Idx) : Host.rsqrt x i = Ideal.rsqrt (x i) := rfl

theorem cmpf_ogt_apply (a b : FVec Ideal s φ) (i : s.Idx) : cmpf .ogt a b i = Ideal.cmp .ogt (a i) (b i) := rfl

end Abstract

end Cert.EdgeSum

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KernelAtIndex.lean ====
/-
  The idealized kernel's result read at an entry, on the extended reals.

  Row e of what the fourth stretch adds is row s(e) of the first region's result, (Σ_k x(s e, k) · w(k, c)) · coef(s e),
  with s(e) the source number wrapped and clamped into the node range; the rows are added at their target rows; the
  second region multiplies row n by coef(n), adds b(c) and applies the PReLU. That is the common form `EdgeSum.entry`.
-/
import proofs.«106693_j10007273799960_2_alg».proof.Proof.KernelValue
import proofs.«106693_j10007273799960_2_alg».proof.Proof.EdgeSumFactor
import proofs.«106693_j10007273799960_2_alg».proof.Proof.LibSegmentSum
import proofs.«106693_j10007273799960_2_alg».proof.Proof.LibHostBroadcast
import proofs.«106693_j10007273799960_2_alg».proof.Proof.LibVectorAsMatrix
import Idealize.ShloMosaic.PureOps.Ideal.Laws

noncomputable section

namespace Cert.KernelIdeal.AtIndex

open Cert.KernelIdeal Cert.KernelIdeal.Gen
open Idealize.ShloMosaic Idealize.ShloMosaic.TcCoe Idealize.SL.Sem
open Idealize.ShloMosaic.ValueIdx Idealize.ShloMosaic.SegmentSum Cert.EdgeSum
open Cert.ReferenceIdeal.Stages (srcIds dstIds asColumn wrapNegative coef)

theorem zeros_rows :
    broadcastInDim S50000x128 ![] bcast_S_S50000x128 (constant (F := Ideal) S_ .f32 0x00000000#32) = fun _ => (0 : EReal) :=
  funext fun j => (HostBroadcast.scalar_apply _ bcast_S_S50000x128 _ j).trans Ideal.ofBits_zero_f32

theorem rowGather_eq : gather_S50000x128_S850000x1_S850000x128_1_0_n_n_0_1_1128 = rowGatherDims nodes edges chans gather_S50000x128_S850000x1_S850000x128_1_0_n_n_0_1_1128_wf := rfl
theorem rowScatter_eq : scatter_S50000x128_S850000x1_S850000x128_1_0_0_1 = rowScatterDims nodes edges chans scatter_S50000x128_S850000x1_S850000x128_1_0_0_1_wf := rfl

/-- The gathered rows of the row-scaled product, row by row (the change of float format is the identity). -/
theorem updates_eq (x : S50000x256.Idx → EReal) (w : S256x128.Idx → EReal) (cf : S50000.Idx → EReal)
    (srcCol : IVec S850000x1 32) :
    (extf (F := Ideal) .f32 (Host.gather gather_S50000x128_S850000x1_S850000x128_1_0_n_n_0_1_1128
        (ScaledProduct.whole x w (shapeCast S50000x1 cf shapeCasts_S50000_S50000x1) : FVec Ideal S50000x128 .bf16) srcCol)
        bitsLt_bf16_f32 : S850000x128.Idx → EReal)
      = fun j : S850000x128.Idx => (∑ k : Fin 256, x (ix2 (clampRow nodes nodes_pos srcCol (j 0)) k) * w (ix2 k (j 1)))
          * (fun n : Fin nodes => cf (ix1 n)) (clampRow nodes nodes_pos srcCol (j 0)) := by
  funext j
  rw [ValueIdx.extf_apply, rowGather_eq]
  refine (rowGather_apply nodes_pos gather_S50000x128_S850000x1_S850000x128_1_0_n_n_0_1_1128_wf _ srcCol j).trans ?_
  unfold ScaledProduct.whole
  refine congrArg₂ (· * ·) rfl ?_
  exact VectorAsMatrix.col_apply cf shapeCasts_S50000_S50000x1 _ 0

variable (m : (ℓ : Loc nD τ sig) → Buf (Elt Ideal) ℓ) (ρ : Dev nD → PrngReg)

/-- The kernel's result at entry i is the common form. -/
theorem result_apply (c : Dev nD) (i : S50000x128.Idx) :
    W6 m ρ c (Proc.devRef .tc main_v31) i
      = entry scatter_S50000x128_S850000x1_S850000x128_1_0_0_1_wf (asColumn (dstIds (m ((c : Thread nD τ).loc main_arg1))))
          (asColumn (wrapNegative (srcIds (m ((c : Thread nD τ).loc main_arg1)))))
          (fun n => coef (F := Ideal) (m ((c : Thread nD τ).loc main_arg1)) (ix1 n))
          (m ((c : Thread nD τ).loc main_arg0)) (m ((c : Thread nD τ).loc main_arg2))
          (m ((c : Thread nD τ).loc main_arg3)) (m ((c : Thread nD τ).loc main_arg4)) i := by
  obtain ⟨r, q, rfl⟩ : ∃ (r : Fin 50000) (q : Fin 128), i = ix2 r q := ⟨i 0, i 1, eq_ix2 i⟩
  rw [Whole.result_eq]
  unfold ScaleBiasPrelu.whole ScaleBiasPrelu.prelu entry
  rw [scatterAdd_eq, updates_eq, zeros_rows, rowScatter_eq,
    VectorAsMatrix.row_apply, VectorAsMatrix.row_apply, VectorAsMatrix.col_apply]
  all_goals rfl

end Cert.KernelIdeal.AtIndex

end
-- ==== Proof.RefRun.lean ====
/-
  The reference program's run.

  @main of the reference is 67 host operations in a row (the two calls of jnp.where's helper stand as their three and
  one operations). Listed in order they ARE @main, and a straight line of host operations always terminates with every
  buffer at the fold of the operations' results over the launch contents. Reading that fold at the result buffer gives
  the reference's result as the function `Stages.refOut` of the five argument arrays; reading it at an argument gives
  the argument as launched.
-/
import proofs.«106693_j10007273799960_2_alg».proof.Proof.Gen.ReferenceIdeal
import proofs.«106693_j10007273799960_2_alg».proof.Proof.Stages
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- @main's 67 operations, in order. -/
abbrev ops : List (HloOp τ sig (Elt F)) :=
  [
    StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.unary main_cst_9 main_v47 (broadcastInDim S50000x128 ![] bcast_S_S50000x128 : (⟨S_, .f32⟩ : BufTy).Contents (Elt F) → (⟨S50000x128, .f32⟩ : BufTy).Contents (Elt F)),
    StableHlo.binary main_v46 main_v47 main_v48 (cmpf .ogt : (⟨S50000x128, .f32⟩ : BufTy).Contents (Elt F) → (⟨S50000x128, .f32⟩ : BufTy).Contents (Elt F) → (⟨S50000x128, .i1⟩ : BufTy).Contents (Elt F)),
    StableHlo.unary main_arg4 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v46 main_v51 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v48 : StableHlo.TRef sig ⟨S50000x128, .i1⟩) (.of main_v46 : StableHlo.TRef sig ⟨S50000x128, .f32⟩) (.of main_v51 : StableHlo.TRef sig ⟨S50000x128, .f32⟩) (.of main_v52 : StableHlo.TRef sig ⟨S50000x128, .f32⟩) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

set_option maxRecDepth 8192 in
set_option maxHeartbeats 26800000 in
/-- Every weakly fair execution of the reference terminates without a fault, with the result buffer at `Stages.refOut`
    of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = Stages.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v52).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Whole

end
-- ==== Proof.RefCoef.lean ====
/-
  The shared stages read at an entry, on the extended reals: the constant arrays, the index columns, and the
  coefficient `degree > 0 ? degree^(-1/2) : 0`, which is a nonnegative real because the degree is a count.
-/
import proofs.«106693_j10007273799960_2_alg».proof.Proof.Stages
import proofs.«106693_j10007273799960_2_alg».proof.Proof.LibSegmentSum
import proofs.«106693_j10007273799960_2_alg».proof.Proof.LibHostBroadcast
import proofs.«106693_j10007273799960_2_alg».proof.Proof.EdgeSumFactor
import Idealize.ShloMosaic.PureOps.Ideal.Laws
import Idealize.ShloMosaic.PureOps.IdealRules
import Idealize.ShloMosaic.Lib.ValueIdx

noncomputable section

namespace Cert.ReferenceIdeal.AtIndex

open Cert.ReferenceIdeal Cert.ReferenceIdeal.Gen Cert.ReferenceIdeal.Stages
open Idealize.ShloMosaic Idealize.ShloMosaic.ValueIdx Idealize.ShloMosaic.SegmentSum Cert.EdgeSum

/-! ## Constants -/

theorem zero_word : constant (F := Ideal) S_ .f32 0x00000000#32 ix0 = (0 : EReal) := Ideal.ofBits_zero_f32

theorem one_word : constant (F := Ideal) S_ .f32 0x3F800000#32 ix0 = (1 : EReal) := IdealRules.sign_bit.ideal_onePat .f32

theorem zeros_nodes :
    broadcastInDim S50000 ![] bcast_S_S50000 (constant (F := Ideal) S_ .f32 0x00000000#32) = fun _ => (0 : EReal) :=
  funext fun j => (HostBroadcast.scalar_apply _ bcast_S_S50000 _ j).trans zero_word

theorem ones_edges :
    broadcastInDim S850000 ![] bcast_S_S850000 (constant (F := Ideal) S_ .f32 0x3F800000#32) = fun _ => (1 : EReal) :=
  funext fun j => (HostBroadcast.scalar_apply _ bcast_S_S850000 _ j).trans one_word

theorem zeros_rows :
    broadcastInDim S50000x128 ![] bcast_S_S50000x128 (constant (F := Ideal) S_ .f32 0x00000000#32) = fun _ => (0 : EReal) :=
  funext fun j => (HostBroadcast.scalar_apply _ bcast_S_S50000x128 _ j).trans zero_word

/-! ## The index columns -/

/-- An array as a column reads, at (e, 0), the array at e. -/
theorem asColumn_apply {α : Type} (v : S850000.Idx → α) (e : Fin 850000) (u : Fin 1) :
    asColumn v (ix2 e u) = v (ix1 e) :=
  HostBroadcast.vec_col_apply bcast_S850000_S850000x1_0 v (ix2 e u)

/-- A nonnegative row number is not wrapped. -/
theorem wrapNegative_of_nonneg (v : IVec S850000 32) (e : Fin 850000) (h : 0 ≤ (v (ix1 e)).toInt) :
    wrapNegative v (ix1 e) = v (ix1 e) := by
  have hz : broadcastInDim S850000 ![] bcast_S_S850000 (constantI S_ 32 0#32) (ix1 e) = (0#32 : BitVec 32) :=
    HostBroadcast.scalar_apply _ bcast_S_S850000 _ _
  have hs : IntOp.cmpi .slt (v (ix1 e)) (0#32 : BitVec 32) = 0#1 := by
    show BitVec.ofBool ((v (ix1 e)).slt 0#32) = 0#1
    have : (v (ix1 e)).slt 0#32 = false := by
      unfold BitVec.slt
      exact decide_eq_false (not_lt.mpr (by rw [show (0#32 : BitVec 32).toInt = 0 from rfl]; exact h))
    rw [this]; rfl
  unfold wrapNegative
  rw [select_apply]
  show Scalar.select (IntOp.cmpi .slt (v (ix1 e)) (broadcastInDim S850000 ![] bcast_S_S850000 (constantI S_ 32 0#32) (ix1 e))) _ _ = _
  rw [hz, hs]
  rfl

/-- The target column and the wrapped target column agree wherever the target number is nonnegative. -/
theorem wrapped_target_agrees (ei : IVec S2x800000 32) (e : Fin 850000)
    (h : 0 ≤ (asColumn (dstIds ei) (ix2 e 0)).toInt) :
    asColumn (wrapNegative (dstIds ei)) (ix2 e 0) = asColumn (dstIds ei) (ix2 e 0) := by
  rw [asColumn_apply] at h ⊢
  rw [asColumn_apply]
  exact wrapNegative_of_nonneg _ e h

/-! ## The coefficient -/

/-- The coefficient at node n, on the extended reals. -/
theorem coef_apply (ei : IVec S2x800000 32) (i : S50000.Idx) :
    coef (F := Ideal) ei i
      = Scalar.select (Ideal.cmp .ogt (Ideal.hostScatterAdd scatter_S50000_S850000x1_S850000_n_0_0_1 (fun _ => (0 : EReal)) (asColumn (dstIds ei)) (fun _ => (1 : EReal)) i) 0)
          (Ideal.rsqrt (Ideal.hostScatterAdd scatter_S50000_S850000x1_S850000_n_0_0_1 (fun _ => (0 : EReal)) (asColumn (dstIds ei)) (fun _ => (1 : EReal)) i))
          (0 : EReal) := by
  unfold coef degree
  rw [select_apply, cmpf_ogt_apply, rsqrt_apply, scatterAdd_eq]
  simp only [id]
  rw [zeros_nodes, ones_edges]

/-- It is a nonnegative real: the inverse square root of a positive count, or zero. -/
theorem coef_real (ei : IVec S2x800000 32) (n : Fin 50000) :
    ∃ r : ℝ, 0 ≤ r ∧ coef (F := Ideal) ei (ix1 n) = (r : EReal) := by
  rw [coef_apply]
  exact degree_coeff_real scatter_S50000_S850000x1_S850000_n_0_0_1 (asColumn (dstIds ei)) (ix1 n)

end Cert.ReferenceIdeal.AtIndex

end
-- ==== Proof.RefAtIndex.lean ====
/-
  The reference's result read at an entry, on the extended reals.

  Row e of the gathered product is row s(e) of x · w, where s(e) is e's source number wrapped and clamped into the
  node range, and e's weight is coef(s(e)) · coef(t(e)) with t(e) the target number treated the same way. Adding the
  weighted rows at their target rows, the target coefficient of every row that lands at n is coef(n), and that factor,
  a nonnegative real, passes through the sum. So entry (n, c) of the reference is

      v = (Σ_{e lands at n} (Σ_k x(s e, k) · w(k, c)) · coef(s e)) · coef(n) + b(c),      v if v > 0 else a(c) · v.
-/
import proofs.«106693_j10007273799960_2_alg».proof.Proof.RefCoef
import proofs.«106693_j10007273799960_2_alg».proof.Proof.LibMatmulRows

noncomputable section

namespace Cert.ReferenceIdeal.AtIndex

open Cert.ReferenceIdeal Cert.ReferenceIdeal.Gen Cert.ReferenceIdeal.Stages
open Idealize.ShloMosaic Idealize.ShloMosaic.ValueIdx Idealize.ShloMosaic.SegmentSum Cert.EdgeSum

/-! ## The gathered product and the edge weight -/

theorem dot_lhs0 (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl

theorem dot_rhs1 (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- Entry (r, c) of x · w. -/
theorem product_apply (x : FVec Ideal S50000x256 .f32) (w : FVec Ideal S256x128 .f32) (i : S50000x128.Idx) :
    Host.dotGeneral dot_S50000x256_S256x128_S50000x128_1_0_0_1_n_n none x w i = ∑ k : Fin 256, x (ix2 (i 0) k) * w (ix2 k (i 1)) := by
  unfold Host.dotGeneral
  exact MatmulRows.dotGeneral_apply dot_S50000x256_S256x128_S50000x128_1_0_0_1_n_n none _ rfl rfl rfl rfl dot_lhs0 dot_rhs1 x w i

theorem rowGather_eq : gather_S50000x128_S850000x1_S850000x128_1_0_n_n_0_1_1128 = rowGatherDims nodes edges chans gather_S50000x128_S850000x1_S850000x128_1_0_n_n_0_1_1128_wf := rfl
theorem vecGather_eq : gather_S50000_S850000x1_S850000_n_0_n_n_0_1_1 = vecGatherDims nodes edges gather_S50000_S850000x1_S850000_n_0_n_n_0_1_1_wf := rfl
theorem rowScatter_eq : scatter_S50000x128_S850000x1_S850000x128_1_0_0_1 = rowScatterDims nodes edges chans scatter_S50000x128_S850000x1_S850000x128_1_0_0_1_wf := rfl

/-- Row e, column c of the gathered product: the product's row at e's clamped source number. -/
theorem gathered_product_apply (x : FVec Ideal S50000x256 .f32) (w : FVec Ideal S256x128 .f32) (idx : IVec S850000x1 32)
    (j : S850000x128.Idx) :
    Host.gather gather_S50000x128_S850000x1_S850000x128_1_0_n_n_0_1_1128 (Host.dotGeneral dot_S50000x256_S256x128_S50000x128_1_0_0_1_n_n none x w) idx j
      = ∑ k : Fin 256, x (ix2 (clampRow nodes nodes_pos idx (j 0)) k) * w (ix2 k (j 1)) := by
  rw [rowGather_eq]
  exact (rowGather_apply nodes_pos gather_S50000x128_S850000x1_S850000x128_1_0_n_n_0_1_1128_wf (Host.dotGeneral dot_S50000x256_S256x128_S50000x128_1_0_0_1_n_n none x w) idx j).trans (product_apply x w _)

/-- The weight of edge e: the coefficients at its clamped source and target numbers. -/
theorem edgeWeight_apply (ei : IVec S2x800000 32) (e : Fin 850000) :
    edgeWeight (F := Ideal) ei (ix1 e)
      = coef (F := Ideal) ei (ix1 (clampRow nodes nodes_pos (asColumn (wrapNegative (srcIds ei))) e))
        * coef (F := Ideal) ei (ix1 (clampRow nodes nodes_pos (asColumn (wrapNegative (dstIds ei))) e)) := by
  unfold edgeWeight
  rw [mulf_apply, vecGather_eq]
  exact congrArg₂ (· * ·) (vecGather_apply nodes_pos gather_S50000_S850000x1_S850000_n_0_n_n_0_1_1_wf _ _ (ix1 e)) (vecGather_apply nodes_pos gather_S50000_S850000x1_S850000_n_0_n_n_0_1_1_wf _ _ (ix1 e))

/-- The weighted rows, row by row. -/
theorem updates_eq (x : FVec Ideal S50000x256 .f32) (ei : IVec S2x800000 32) (w : FVec Ideal S256x128 .f32) :
    mulf (Host.gather gather_S50000x128_S850000x1_S850000x128_1_0_n_n_0_1_1128 (Host.dotGeneral dot_S50000x256_S256x128_S50000x128_1_0_0_1_n_n none x w) (asColumn (wrapNegative (srcIds ei))))
        (broadcastInDim S850000x128 ![0, 1] bcast_S850000x1_S850000x128_0_1 (asColumn (edgeWeight (F := Ideal) ei)))
      = fun j => (∑ k : Fin 256, x (ix2 (clampRow nodes nodes_pos (asColumn (wrapNegative (srcIds ei))) (j 0)) k) * w (ix2 k (j 1)))
          * (coef (F := Ideal) ei (ix1 (clampRow nodes nodes_pos (asColumn (wrapNegative (srcIds ei))) (j 0)))
            * (fun n : Fin nodes => coef (F := Ideal) ei (ix1 n)) (clampRow nodes nodes_pos (asColumn (wrapNegative (dstIds ei))) (j 0))) := by
  funext j
  rw [mulf_apply, gathered_product_apply]
  refine congrArg _ ?_
  refine (HostBroadcast.column_apply bcast_S850000_S850000x1_0 bcast_S850000x1_S850000x128_0_1 (edgeWeight (F := Ideal) ei) j).trans ?_
  exact edgeWeight_apply ei (j 0)

/-! ## The result -/

/-- The reference before the activation, at entry i. -/
theorem refPre_apply (x : FVec Ideal S50000x256 .f32) (ei : IVec S2x800000 32) (w : FVec Ideal S256x128 .f32)
    (b : FVec Ideal S128 .f32) (i : S50000x128.Idx) :
    refPre (F := Ideal) x ei w b i
      = Ideal.hostScatterAdd (rowScatterDims nodes edges chans scatter_S50000x128_S850000x1_S850000x128_1_0_0_1_wf) (fun _ => 0) (asColumn (dstIds ei))
          (fun j => (∑ k : Fin 256, x (ix2 (clampRow nodes nodes_pos (asColumn (wrapNegative (srcIds ei))) (j 0)) k) * w (ix2 k (j 1)))
            * coef (F := Ideal) ei (ix1 (clampRow nodes nodes_pos (asColumn (wrapNegative (srcIds ei))) (j 0)))) i
          * coef (F := Ideal) ei (ix1 (i 0)) + b (ix1 (i 1)) := by
  unfold refPre
  rw [addf_apply, scatterAdd_eq, updates_eq, zeros_rows, rowScatter_eq,
    HostBroadcast.bias_apply bcast_S128_S1x128_1 bcast_S1x128_S50000x128_0_1]
  refine congrArg (· + b (ix1 (i 1))) ?_
  exact scaled_before_eq_scaled_after scatter_S50000x128_S850000x1_S850000x128_1_0_0_1_wf (asColumn (dstIds ei)) (asColumn (wrapNegative (dstIds ei)))
    (fun e h => wrapped_target_agrees ei e h) _ _ (fun n => coef (F := Ideal) ei (ix1 n)) (fun n => coef_real ei n) i

/-- The reference's result at entry i is the common form. -/
theorem refOut_apply (x : FVec Ideal S50000x256 .f32) (ei : IVec S2x800000 32) (w : FVec Ideal S256x128 .f32)
    (b a : FVec Ideal S128 .f32) (i : S50000x128.Idx) :
    refOut (F := Ideal) x ei w b a i
      = entry scatter_S50000x128_S850000x1_S850000x128_1_0_0_1_wf (asColumn (dstIds ei)) (asColumn (wrapNegative (srcIds ei)))
          (fun n => coef (F := Ideal) ei (ix1 n)) x w b a i := by
  unfold refOut entry
  rw [select_apply, cmpf_ogt_apply, mulf_apply, zeros_rows,
    HostBroadcast.bias_apply bcast_S128_S1x128_1 bcast_S1x128_S50000x128_0_1, refPre_apply]
  all_goals rfl

end Cert.ReferenceIdeal.AtIndex

end
-- ==== Proof.lean ====
/-
  A graph convolution with symmetric degree normalisation, bias and per-channel PReLU: the kernel against its
  reference, on the extended reals.

  With s(e), t(e) the source and target node of edge e (self loops appended), deg(n) the number of edges arriving at n
  and coef(n) = deg(n)^(-1/2) (0 at an isolated node), the reference computes

      out(n, c) = prelu_a(c) ( Σ_{t(e) = n} (x · w)(s e, c) · (coef(s e) · coef(t e)) + b(c) ).

  The kernel scales row r of x · w by coef(r) in a first region (25 blocks of 2000 rows), gathers and adds the scaled
  rows on the host, and in a second region (10 blocks of 5000 rows) multiplies row n of the sum by coef(n), adds the
  bias and applies the PReLU:

      out(n, c) = prelu_a(c) ( (Σ_{t(e) = n} (x · w)(s e, c) · coef(s e)) · coef(n) + b(c) ).

  The two agree because every edge landing at n has t(e) = n, and coef(n), a nonnegative real, passes through a finite
  sum of extended reals (`EdgeSum.scaled_before_eq_scaled_after`): no finiteness of x, w, b or a is used. Changes of
  float format are the identity on extended reals, so the bf16 product and the bf16 intermediate cost nothing.

  The frames of the two kernel programs are the generated ones; the reference's frame is its run with the result
  dropped; the idealization rewrote nothing, so `preserves` is trivial.
-/
import proofs.«106693_j10007273799960_2_alg».proof.Defs
import proofs.«106693_j10007273799960_2_alg».proof.Proof.Gen.Kernel
import proofs.«106693_j10007273799960_2_alg».proof.Proof.Gen.Kernel.Frame
import proofs.«106693_j10007273799960_2_alg».proof.Proof.Gen.KernelIdeal
import proofs.«106693_j10007273799960_2_alg».proof.Proof.Gen.KernelIdeal.Frame
import proofs.«106693_j10007273799960_2_alg».proof.Proof.Gen.ReferenceIdeal
import proofs.«106693_j10007273799960_2_alg».proof.Proof.Gen.Pre_finite_inputs
import proofs.«106693_j10007273799960_2_alg».proof.Proof.KernelRun
import proofs.«106693_j10007273799960_2_alg».proof.Proof.KernelAtIndex
import proofs.«106693_j10007273799960_2_alg».proof.Proof.RefRun
import proofs.«106693_j10007273799960_2_alg».proof.Proof.RefAtIndex
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Whole.run (F := Ideal) m ρ)

/-- The idealization rewrote no operation. -/
theorem preserves : Cert.preserves_Kernel_KernelIdeal := trivial

/-- Both programs end with the result array at the common form `EdgeSum.entry` of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v31),
    Cert.KernelIdeal.Whole.run_main m ρ, ?_⟩
  refine (θ_run Cert.ReferenceIdeal.defs _ _).mono (fun _ h c => ⟨(h c).1.trans ?_, (h c).2⟩)
    (Cert.ReferenceIdeal.Whole.run (F := Ideal) m' ρ')
  rw [(hagree c).1, (hagree c).2.1, (hagree c).2.2.1, (hagree c).2.2.2.1, (hagree c).2.2.2.2]
  funext i
  exact (Cert.ReferenceIdeal.AtIndex.refOut_apply _ _ _ _ _ i).trans
    (Cert.KernelIdeal.AtIndex.result_apply m ρ c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
